-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4096x2048 .f32) (main_arg1 : FVec F S8192x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S4096x2048 : Shape := ⟨2, ![4096, 2048]⟩
abbrev S8192x2048 : Shape := ⟨2, ![8192, 2048]⟩
abbrev S4096x8192 : Shape := ⟨2, ![4096, 8192]⟩
abbrev S64x2048 : Shape := ⟨2, ![64, 2048]⟩
abbrev S64x8192 : Shape := ⟨2, ![64, 8192]⟩
abbrev S64 : Shape := ⟨1, ![64]⟩
abbrev S64x1 : Shape := ⟨2, ![64, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x2048, .bf16⟩
  | .hbm, ⟨3, _⟩ => ⟨S8192x2048, .bf16⟩
  | .hbm, ⟨4, _⟩ => ⟨S4096x8192, .f32⟩
  | .local _ .vmem, ⟨0, _⟩ => ⟨S64x2048, .bf16⟩
  | .local _ .vmem, ⟨1, _⟩ => ⟨S64x2048, .bf16⟩
  | .local _ .vmem, ⟨2, _⟩ => ⟨S8192x2048, .bf16⟩
  | .local _ .vmem, ⟨3, _⟩ => ⟨S64x8192, .f32⟩
  | .local _ .vmem, ⟨4, _⟩ => ⟨S64x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S8192x2048_S8192x2048_0_0 : ∀ a, (![0, 0] : Fin 2 → Nat) a + S8192x2048.size a ≤ S8192x2048.size a
  h_S8192x2048 : 0 < S8192x2048.numel
  shapeCasts_S8192x2048_S8192x2048 : S8192x2048.ShapeCasts S8192x2048
  reduces_S64x8192_S64 : S64x8192.Reduces [1] S64
  shapeCasts_S64_S64x1 : S64.ShapeCasts S64x1
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  dot_S64x2048_S8192x2048_S64x8192_1_1_0_0_n_n_wf : DotDims.WF S64x2048 S8192x2048 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S4096x2048.size a
  hwx0_0 : ∀ i : grid0.Coords, EltTy.bits .bf16 = 32 ∨ (Rect.block (s := S4096x2048) S64x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x2048.size a ≤ S8192x2048.size a
  hwx0_1 : ∀ i : grid0.Coords, EltTy.bits .bf16 = 32 ∨ (Rect.block (s := S8192x2048) S8192x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S4096x8192.size a
  hwx0_2 : ∀ i : grid0.Coords, EltTy.bits .f32 = 32 ∨ (Rect.block (s := S4096x8192) S64x8192.size (cc0_transform_2 i) (hinb0_2 i)).WholeWords (EltTy.packing .f32)

variable [Facts₀]

def dot_S64x2048_S8192x2048_S64x8192_1_1_0_0_n_n : DotDims S64x2048 S8192x2048 S64x8192 where
  lhsContracting := [1]
  rhsContracting := [1]
  lhsNonContracting := [0]
  rhsNonContracting := [0]
  lhsBatch := []
  rhsBatch := []
  wf := dot_S64x2048_S8192x2048_S64x8192_1_1_0_0_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.ShiftedGelu.lean ====
/-
  The function both programs compute, index by index, on the extended reals.

  From x : [4096, 2048] and w : [8192, 2048] form the scores s = x · wᵀ, s(p, n) = Σ_k x(p, k) · w(n, k); take each row's
  maximum over its 8192 entries, folded from −∞; shift the row by its maximum, d = s(p, n) − max_n' s(p, n'); and apply the
  tanh approximation of GELU to the shifted entry,

      gelu d = (½ · d) · (1 + tanh (κ · (d + ((c · d) · d) · d))),

  with κ the single-precision value nearest √(2/π) and c the one nearest 0.044715, each kept as the word that denotes it:
  the two programs carry the same four words, so none is ever evaluated. The products and sums are written in the order in
  which both programs take them; no law of arithmetic is needed beyond that order, so nothing here asks an entry to be
  finite. Nothing in this file mentions a program.
-/
import Idealize.ShloMosaic.PureOps.Ideal
import Idealize.ShloMosaic.Lib.ValueIdx

noncomputable section

namespace Cert.ShiftedGelu

open Idealize.ShloMosaic Idealize.ShloMosaic.ValueIdx

/-- The word of −∞, from which a row's maximum is folded. -/
abbrev negInf : EReal := FloatOps.ofBits (F := Ideal) .f32 0xFF800000#32
/-- The cubic coefficient, the single-precision value nearest 0.044715. -/
abbrev cubic : EReal := FloatOps.ofBits (F := Ideal) .f32 0x3D372713#32
/-- The scale, the single-precision value nearest √(2/π). -/
abbrev scale : EReal := FloatOps.ofBits (F := Ideal) .f32 0x3F4C422A#32
/-- One half. -/
abbrev half : EReal := FloatOps.ofBits (F := Ideal) .f32 0x3F000000#32
/-- One. -/
abbrev one : EReal := FloatOps.ofBits (F := Ideal) .f32 0x3F800000#32

/-- Entry (p, n) of x · wᵀ: row p of x against row n of w. -/
def score (x : (⟨2, ![4096, 2048]⟩ : Shape).Idx → EReal) (w : (⟨2, ![8192, 2048]⟩ : Shape).Idx → EReal)
    (p : Fin 4096) (n : Fin 8192) : EReal :=
  ∑ k : Fin 2048, x (ix2 p k) * w (ix2 n k)

/-- The maximum of 8192 extended reals, folded from −∞ (any order: max is commutative, associative). -/
def rowMax (f : Fin 8192 → EReal) : EReal :=
  (Finset.univ : Finset (Fin 8192)).fold max negInf f

/-- The tanh approximation of GELU at one extended real, in the order both programs multiply and add. -/
def gelu (d : EReal) : EReal :=
  (half * d) * (one + Ideal.tanh (scale * (d + ((cubic * d) * d) * d)))

/-- The result array: GELU of each score shifted by its row's maximum. -/
def G (x : (⟨2, ![4096, 2048]⟩ : Shape).Idx → EReal) (w : (⟨2, ![8192, 2048]⟩ : Shape).Idx → EReal) :
    (⟨2, ![4096, 8192]⟩ : Shape).Idx → EReal :=
  fun i => gelu (score x w (i 0) (i 1) - rowMax (fun n => score x w (i 0) n))

/-- `G` at an index written by coordinates. -/
theorem G_ix2 (x : (⟨2, ![4096, 2048]⟩ : Shape).Idx → EReal) (w : (⟨2, ![8192, 2048]⟩ : Shape).Idx → EReal)
    (p : Fin 4096) (n : Fin 8192) :
    G x w (ix2 p n) = gelu (score x w p n - rowMax (fun n' => score x w p n')) := rfl

/-- The scalar map spelt with the ideal instance's own operations: what a pointwise program computes entry by entry. -/
theorem gelu_ops (d : EReal) :
    FloatOps.mulf (F := Ideal) (φ := .f32) (FloatOps.mulf (F := Ideal) (φ := .f32) half d)
      (FloatOps.addf (F := Ideal) (φ := .f32) one (FloatOps.tanh (F := Ideal) (φ := .f32)
        (FloatOps.mulf (F := Ideal) (φ := .f32) scale (FloatOps.addf (F := Ideal) (φ := .f32) d
          (FloatOps.mulf (F := Ideal) (φ := .f32) (FloatOps.mulf (F := Ideal) (φ := .f32)
            (FloatOps.mulf (F := Ideal) (φ := .f32) cubic d) d) d)))))
      = gelu d := rfl

end Cert.ShiftedGelu

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BlockValue.lean ====
/-
  What the kernel's body computes from one block of rows, read at an entry.

  At a grid point the body holds 64 rows of x (a [64, 2048] block) and all of w ([8192, 2048]). It multiplies the block by
  wᵀ on the matrix unit into a zero accumulator — entry (r, n) is Σ_k x(r, k) · w(n, k) —, takes each of the 64 rows'
  maximum over its 8192 lanes from −∞, turns the 64 maxima into a column and spreads the column back over the lanes, subtracts,
  and applies the tanh approximation of GELU lane by lane. So entry (r, n) of what it stores is GELU of that row's score
  at n shifted by that row's own maximum: a row never looks at another row.
-/
import proofs.«127939_j58128087384683_1_alg».proof.Proof.Gen.KernelIdeal.Skeleton
import proofs.«127939_j58128087384683_1_alg».proof.Proof.ShiftedGelu
import proofs.«127939_j58128087384683_1_alg».proof.Proof.LibDotRows
import proofs.«127939_j58128087384683_1_alg».proof.Proof.LibKeepdims
import Idealize.ShloMosaic.PureOps.Ideal.Laws
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.ShiftedGelu

/-! ## Where the product's dimension numbers send an output index and a contraction index -/

theorem lhs0 (i : S64x8192.Idx) (q : dot_S64x2048_S8192x2048_S64x8192_1_1_0_0_n_n.contr.Idx) :
    (dot_S64x2048_S8192x2048_S64x8192_1_1_0_0_n_n.lhsIdx i q 0).val = (i 0).val := by
  unfold DotDims.lhsIdx
  rw [dif_neg (show ¬(0 : Fin S64x2048.rank) ∈ dot_S64x2048_S8192x2048_S64x8192_1_1_0_0_n_n.lhsBatch by decide),
    dif_pos (show (0 : Fin S64x2048.rank) ∈ dot_S64x2048_S8192x2048_S64x8192_1_1_0_0_n_n.lhsNonContracting by decide)]
  rfl
theorem lhs1 (i : S64x8192.Idx) (q : dot_S64x2048_S8192x2048_S64x8192_1_1_0_0_n_n.contr.Idx) :
    (dot_S64x2048_S8192x2048_S64x8192_1_1_0_0_n_n.lhsIdx i q 1).val = (q ⟨0, by decide⟩).val :=
  dot_S64x2048_S8192x2048_S64x8192_1_1_0_0_n_n.lhsIdx_val_of_single rfl i q
theorem rhs0 (i : S64x8192.Idx) (q : dot_S64x2048_S8192x2048_S64x8192_1_1_0_0_n_n.contr.Idx) :
    (dot_S64x2048_S8192x2048_S64x8192_1_1_0_0_n_n.rhsIdx i q 0).val = (i 1).val := by
  unfold DotDims.rhsIdx
  rw [dif_neg (show ¬(0 : Fin S8192x2048.rank) ∈ dot_S64x2048_S8192x2048_S64x8192_1_1_0_0_n_n.rhsBatch by decide),
    dif_pos (show (0 : Fin S8192x2048.rank) ∈ dot_S64x2048_S8192x2048_S64x8192_1_1_0_0_n_n.rhsNonContracting by decide)]
  rfl
theorem rhs1 (i : S64x8192.Idx) (q : dot_S64x2048_S8192x2048_S64x8192_1_1_0_0_n_n.contr.Idx) :
    (dot_S64x2048_S8192x2048_S64x8192_1_1_0_0_n_n.rhsIdx i q 1).val = (q ⟨0, by decide⟩).val :=
  dot_S64x2048_S8192x2048_S64x8192_1_1_0_0_n_n.rhsIdx_val_of_single rfl i q

/-! ## The three operations that are not lane by lane -/

/-- The block's scores: entry (r, n) of the product into the zero accumulator is row r of the block against row n of w. -/
theorem scores_at (x0 : FVec Ideal S64x2048 .bf16) (x1 : FVec Ideal S8192x2048 .bf16) (r : Fin 64) (n : Fin 8192) :
    FloatOps.matmul dot_S64x2048_S8192x2048_S64x8192_1_1_0_0_n_n none x0 x1 (constant (F := Ideal) S64x8192 .f32 0x00000000#32) (ix2 r n)
      = ∑ k : Fin 2048, x0 (ix2 r k) * x1 (ix2 n k) :=
  Cert.LibDotRows.matmul_zero_at dot_S64x2048_S8192x2048_S64x8192_1_1_0_0_n_n none rfl rfl lhs0 lhs1 rhs0 rhs1 x0 x1 r n

/-- A row's maximum: the reduction over the lane axis, at row r, is the fold of max from −∞ over that row's 8192 entries. -/
theorem lanemax_at (v : FVec Ideal S64x8192 .f32) (h : S64x8192.Reduces [1] S64) (hφ : FKind.Formats .f32)
    (hacc : (0xFF800000#32 : BitVec (FTy.bits .f32)) = FKind.maximumf.neutral .f32 hφ) (r : Fin 64) :
    multiReduction (F := Ideal) .maximumf [1] S64 v 0xFF800000#32 h hφ hacc (ix1 r) = rowMax (fun n => v (ix2 r n)) := by
  refine (Ideal.multiReduction_maximumf_single v 0xFF800000#32 h hφ hacc (ix1 r)).trans ?_
  show (Finset.univ : Finset (Fin 8192)).fold max negInf (fun n => v (h.lift (ix1 r) n)) = _
  unfold rowMax
  congr 1
  funext n
  exact congrArg v (funext fun a => Fin.ext (by
    match a with
    | ⟨0, _⟩ => rfl
    | ⟨1, _⟩ => rfl))

/-- The 64 maxima as a column, spread over the lanes: entry (r, n) is the maximum of row r, whatever n. -/
theorem spread_at (u : FVec Ideal S64 .f32) (hc : S64.ShapeCasts S64x1) (hb : S64x1.Broadcasts S64x8192) (r : Fin 64) (n : Fin 8192) :
    broadcastTo S64x8192 (shapeCast S64x1 u hc) hb (ix2 r n) = u (ix1 r) :=
  (Cert.Keepdims.broadcastTo_a1_ab_apply (shapeCast S64x1 u hc) hb r n).trans
    (Cert.Keepdims.shapeCast_a_a1_apply u hc r (0 : Fin 1))

/-! ## The body's stored value at an entry -/

/-- Entry (r, n) of the block the body stores: GELU of the block's score at (r, n) shifted by the maximum of the block's row r. -/
theorem stored_at (x0 : FVec Ideal S64x2048 .bf16) (x1 : FVec Ideal S8192x2048 .bf16) (r : Fin 64) (n : Fin 8192) :
    k0_pay1 (F := Ideal) x0 x1 (ix2 r n)
      = gelu ((∑ k : Fin 2048, x0 (ix2 r k) * x1 (ix2 n k))
          - rowMax (fun n' => ∑ k : Fin 2048, x0 (ix2 r k) * x1 (ix2 n' k))) := by
  unfold k0_pay1
  rw [shapeCast_self, shapeCast_self]
  refine (gelu_ops _).trans ?_
  refine congrArg gelu ?_
  show FloatOps.subf (F := Ideal) (φ := .f32) _ _ = _
  refine congrArg₂ (fun a b : EReal => a - b) (scores_at x0 x1 r n) ?_
  refine (spread_at _ _ _ r n).trans ?_
  refine (lanemax_at _ _ _ _ r).trans ?_
  exact congrArg rowMax (funext fun n' => scores_at x0 x1 r n')

end Cert.KernelIdeal.BlockValue

end
-- ==== Proof.WholeArray.lean ====
/-
  From blocks to the array: what the kernel's result array holds after the run, as one function of the two arguments.

  The grid has 64 points. Point t stages rows 64·t … 64·t + 63 of x (all 2048 columns) and, at every point, the whole of w;
  it writes back rows 64·t … 64·t + 63 of the result (all 8192 columns). Before the region the host narrows both arguments to
  a shorter float format, which changes no extended real. A row's shifted GELU needs only that row of x and all of w, so
  the block written at point t is the restriction to its 64 rows of the whole-array function `G`; and row p of the result
  lies in the block of point p / 64, so the 64 blocks cover the array.
-/
import proofs.«127939_j58128087384683_1_alg».proof.Proof.Gen.KernelIdeal.Value
import proofs.«127939_j58128087384683_1_alg».proof.Proof.BlockValue
import Idealize.ShloMosaic.Lib.StableHlo.Run

set_option maxRecDepth 16384

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.ShiftedGelu
open Idealize.ShloMosaic.Pipeline (Dat)

variable (m : (ℓ : Loc nD τ sig) → Buf (Elt Ideal) ℓ) (ρ : Dev nD → PrngReg)

/-! ## The arrays the region finds -/

/-- The first window's array is x itself: narrowing the format is the identity on the extended reals. -/
theorem staged_x (c : Dev nD) :
    (V m c main_v0 : S4096x2048.Idx → EReal) = (m ((c : Thread nD τ).loc main_arg0) : S4096x2048.Idx → EReal) := by
  dsimp only [Gen.V, Gen.hostOps0]; after_results; rfl

/-- The second window's array is w itself. -/
theorem staged_w (c : Dev nD) :
    (V m c main_v1 : S8192x2048.Idx → EReal) = (m ((c : Thread nD τ).loc main_arg1) : S8192x2048.Idx → EReal) := by
  dsimp only [Gen.V, Gen.hostOps0]; after_results; rfl

/-! ## One block -/

/-- A block of 64 rows, stated over plain arrays: if the block's row r is row `row r` of X and the second operand is W,
    then what the body stores at (r, n) is `G X W` at (row r, n). -/
theorem block_eq (X : S4096x2048.Idx → EReal) (W : S8192x2048.Idx → EReal)
    (x0 : FVec Ideal S64x2048 .bf16) (x1 : FVec Ideal S8192x2048 .bf16) (row : Fin 64 → Fin 4096)
    (hx0 : ∀ (r : Fin 64) (k : Fin 2048), x0 (ix2 r k) = X (ix2 (row r) k))
    (hx1 : ∀ (n : Fin 8192) (k : Fin 2048), x1 (ix2 n k) = W (ix2 n k))
    (r : Fin 64) (n : Fin 8192) :
    k0_pay1 (F := Ideal) x0 x1 (ix2 r n) = G X W (ix2 (row r) n) := by
  rw [BlockValue.stored_at, G_ix2]
  unfold score
  simp only [hx0, hx1]

/-! ## The index maps over the grid -/

theorem origin : (![0, 0] : Fin 2 → Nat) = fun _ => 0 := funext fun a => by fin_cases a <;> rfl

/-- Decided over the 64 points: the x window and the result window sit at block row t, column block 0; the w window never moves. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's block is row 64·t + r of the array. -/
def rowOf (t : Fin cfg0.N) (r : Fin 64) : Fin 4096 :=
  ⟨t.val * 64 + r.val, by have hN : grid0.N = 64 := Gen.N_0; have ht : t.val < grid0.N := t.isLt; have := r.isLt; omega⟩

/-! ## What a point writes back -/

/-- Point t writes back block t of `G` of the two arrays as the region finds them. -/
theorem flushed_eq (c : Dev nD) (t : Fin cfg0.N) :
    (dats m 0 c).flushed 2 t
      = ((cfg0.win 2).blk t).view.read (Elt Ideal) (G (V m c main_v0) (V m c main_v1)) := by
  rw [Value.flushed2]
  unfold out0_2
  rw [View.canon_unit_zero origin]
  simp only [View.ld_unit_zero (S := S64x2048) origin, View.ld_unit_zero (S := S8192x2048) origin]
  obtain ⟨e00, e01, e10, e11, e20, e21⟩ := index_facts t
  funext j
  obtain ⟨r, n, rfl⟩ : ∃ (r : Fin 64) (n : Fin 8192), j = ix2 r n := ⟨j 0, j 1, eq_ix2 j⟩
  show k0_pay1 (F := Ideal) (iblk m c 0 t) (iblk m c 1 t) (ix2 r n)
    = G (V m c main_v0) (V m c main_v1) (((cfg0.win 2).blk t).view.emb (ix2 r n))
  have hout : ((cfg0.win 2).blk t).view.emb (ix2 r n) = ix2 (rowOf t r) n := by
    funext a; apply Fin.ext
    match a with
    | ⟨0, _⟩ => show win0_2.index t (0 : Fin 2) * 64 + 1 * r.val = t.val * 64 + r.val; omega
    | ⟨1, _⟩ => show win0_2.index t (1 : Fin 2) * 8192 + 1 * n.val = n.val; omega
  rw [hout]
  refine block_eq (V m c main_v0) (V m c main_v1) (iblk m c 0 t) (iblk m c 1 t) (rowOf t) ?_ ?_ r n
  · intro r' k
    show V m c main_v0 (((cfg0.win 0).blk t).view.emb (ix2 r' k)) = V m c main_v0 (ix2 (rowOf t r') k)
    refine congrArg (V m c main_v0) (funext fun a => Fin.ext ?_)
    match a with
    | ⟨0, _⟩ => show win0_0.index t (0 : Fin 2) * 64 + 1 * r'.val = t.val * 64 + r'.val; omega
    | ⟨1, _⟩ => show win0_0.index t (1 : Fin 2) * 2048 + 1 * k.val = k.val; omega
  · intro n' k
    show V m c main_v1 (((cfg0.win 1).blk t).view.emb (ix2 n' k)) = V m c main_v1 (ix2 n' k)
    refine congrArg (V m c main_v1) (funext fun a => Fin.ext ?_)
    match a with
    | ⟨0, _⟩ => show win0_1.index t (0 : Fin 2) * 8192 + 1 * n'.val = n'.val; omega
    | ⟨1, _⟩ => show win0_1.index t (1 : Fin 2) * 2048 + 1 * k.val = k.val; omega

/-! ## The blocks cover the array -/

/-- An index is in point t's block iff each coordinate is in the block's range on its axis. -/
theorem mem_block (t : Fin cfg0.N) (i : S4096x8192.Idx) :
    i ∈ ((cfg0.win 2).blk t).view.set
      ↔ ∀ a : Fin 2, win0_2.index t a * S64x8192.size a ≤ (i a).val ∧ (i a).val < win0_2.index t a * S64x8192.size a + S64x8192.size a := by
  show i ∈ ((View.whole main_v2).slice (win0_2.rect t)).set ↔ _
  rw [View.set_slice_whole, Rect.mem_set_unit]
  exact Iff.rfl

/-- Every index of the result lies in the block of the point its row belongs to, and that point writes back. -/
theorem covered (i : S4096x8192.Idx) :
    ∃ t : Fin cfg0.N, (cfg0.win 2).flush t = true ∧ i ∈ ((cfg0.win 2).blk t).view.set := by
  have hN : grid0.N = 64 := Gen.N_0
  have hi0 : (i 0).val < 4096 := (i 0).isLt
  have hi1 : (i 1).val < 8192 := (i 1).isLt
  let t : Fin cfg0.N := ⟨(i 0).val / 64, by show (i 0).val / 64 < grid0.N; omega⟩
  have ht : t.val = (i 0).val / 64 := rfl
  obtain ⟨e00, e01, e10, e11, e20, e21⟩ := index_facts t
  refine ⟨t, flush0_2 t, ?_⟩
  rw [mem_block]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 8192 ≤ (i 1).val ∧ (i 1).val < win0_2.index t (1 : Fin 2) * 8192 + 8192; omega

/-! ## The array after the run, and the run -/

/-- After the run the result array is `G` of the two arguments. -/
theorem final (c : Dev nD) :
    (dats m 0 c).arrAt 2 cfg0.N
      = G (m ((c : Thread nD τ).loc main_arg0)) (m ((c : Thread nD τ).loc main_arg1)) := by
  rw [← staged_x m c, ← staged_w m c]
  exact (dats m 0 c).arrAt_eq_of_cover 2 (G (V m c main_v0) (V m c main_v1)) (fun t _ => flushed_eq m c t) covered

/-- Every weakly fair execution of the kernel's program ends with the result array at `G` of the arguments, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.ReferenceValue.lean ====
/-
  The reference computes `G`.

  Its program is a straight line: the product x · wᵀ with both operands contracted on their last axis; each row's maximum by
  a reduction from −∞ over the second axis; the maxima broadcast back over the row (first to a column, then across); the
  subtraction; and the tanh approximation of GELU entry by entry with the same four constants. Read at an index (p, n),
  stage by stage, that is GELU of the score at (p, n) shifted by the maximum of row p.
-/
import proofs.«127939_j58128087384683_1_alg».proof.Proof.Gen.ReferenceIdeal.Read
import proofs.«127939_j58128087384683_1_alg».proof.Proof.ShiftedGelu
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.ShiftedGelu

variable (x : (⟨S4096x2048, .f32⟩ : BufTy).Contents (Elt Ideal)) (w : (⟨S8192x2048, .f32⟩ : BufTy).Contents (Elt Ideal))

/-- The product at (p, n) is the score: row p of x against row n of w. -/
theorem scores_at (p : Fin 4096) (n : Fin 8192) : val_main_v0 (F := Ideal) x w (ix2 p n) = score x w p n := by
  rw [val_main_v0_apply]
  unfold score
  refine Finset.sum_congr rfl fun k _ => ?_
  have el : lidx_main_v0 (ix2 p n) k = ix2 p k := funext fun a => Fin.ext (by
    match a with
    | ⟨0, _⟩ => rfl
    | ⟨1, _⟩ => rfl)
  have er : ridx_main_v0 (ix2 p n) k = ix2 n k := funext fun a => Fin.ext (by
    match a with
    | ⟨0, _⟩ => rfl
    | ⟨1, _⟩ => rfl)
  rw [el, er]

/-- The reduction over the second axis, at row p, is the fold of max from −∞ over that row's 8192 scores. -/
theorem rowmax_at (p : Fin 4096) : val_main_v1 (F := Ideal) x w (ix1 p) = rowMax (fun n => score x w p n) := by
  have hR : S4096x8192.Reduces [1] S4096 := by decide
  unfold val_main_v1
  refine (Host.reduce_eq_fold_single (FloatOps.maximumf (F := Ideal) (φ := .f32)) (val_main_v0 (F := Ideal) x w)
    (val_main_cst (F := Ideal)) reducesTo_S4096x8192_S4096_d1 hR h_S_ (ix1 p)).trans ?_
  show (Finset.univ : Finset (Fin 8192)).fold max negInf (fun n => val_main_v0 (F := Ideal) x w (hR.lift (ix1 p) n)) = _
  unfold rowMax
  congr 1
  funext n
  have e : hR.lift (ix1 p) n = ix2 p n := funext fun a => Fin.ext (by
    match a with
    | ⟨0, _⟩ => rfl
    | ⟨1, _⟩ => rfl)
  rw [e]
  exact scores_at x w p n

/-- The shifted score: the subtraction's result at (p, n). -/
theorem shifted_at (p : Fin 4096) (n : Fin 8192) :
    val_main_v4 (F := Ideal) x w (ix2 p n) = score x w p n - rowMax (fun n' => score x w p n') := by
  rw [val_main_v4_apply, val_main_v3_apply, val_main_v2_apply]
  have e : idx_main_v2 (idx_main_v3 (ix2 p n)) = ix1 p := funext fun a => Fin.ext (by
    match a with
    | ⟨0, _⟩ => rfl)
  rw [e, rowmax_at, scores_at]
  rfl

/-- The entry-by-entry tail: the result at an index is GELU of the shifted score there. -/
theorem tail_at (i : S4096x8192.Idx) : val_main_v17 (F := Ideal) x w i = gelu (val_main_v4 (F := Ideal) x w i) := by
  simp only [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_cst_0_apply, val_main_cst_1_apply, val_main_cst_2_apply,
    val_main_cst_3_apply]
  rfl

/-- The reference's result array is `G` of its two arguments. -/
theorem result_eq : val_main_v17 (F := Ideal) x w = G x w := by
  funext i
  obtain ⟨p, n, rfl⟩ : ∃ (p : Fin 4096) (n : Fin 8192), i = ix2 p n := ⟨i 0, i 1, eq_ix2 i⟩
  rw [tail_at, shifted_at, G_ix2]

end Cert.ReferenceIdeal.RefValue

end
-- ==== Proof.lean ====
/-
  A dense layer followed by a row-wise shift and the tanh approximation of GELU: the kernel against its reference, on the
  extended reals.

  Both programs take x : [4096, 2048] and w : [8192, 2048] and return, at (p, n),

      gelu (s(p, n) − max_n' s(p, n')),   s(p, n) = Σ_k x(p, k) · w(n, k),
      gelu d = (½ · d) · (1 + tanh (κ · (d + ((c · d) · d) · d))),

  with the same four single-precision constants (`ShiftedGelu.lean`: the function `G`). The kernel narrows both arguments
  to a shorter float format on the host (no change to an extended real), then walks 64 blocks of 64 rows of x, each against
  the whole of w: one product on the matrix unit into a zero accumulator, the rows' maxima over the lanes from −∞, the
  shift, the tail lane by lane (`BlockValue.lean`); a row's result needs only that row of x, so each block written back is
  the restriction of `G` to its rows, and the blocks cover the array (`WholeArray.lean`). The reference is one product,
  one reduction, two broadcasts and the same tail (`ReferenceValue.lean`). The two sides multiply and add in the same
  order; what differs is only how the product and the maximum are spelt — a contraction read as the sum over k, a reduction
  read as a fold of max, which is commutative and associative — so no entry has to be finite and the precondition is
  never opened. The kernel's idealization rewrote nothing, so there is nothing to preserve beyond the text itself.
-/
import proofs.«127939_j58128087384683_1_alg».proof.Defs
import proofs.«127939_j58128087384683_1_alg».proof.Proof.Gen.Kernel
import proofs.«127939_j58128087384683_1_alg».proof.Proof.Gen.Kernel.Skeleton
import proofs.«127939_j58128087384683_1_alg».proof.Proof.Gen.Kernel.Launch
import proofs.«127939_j58128087384683_1_alg».proof.Proof.Gen.Kernel.Points
import proofs.«127939_j58128087384683_1_alg».proof.Proof.Gen.Kernel.Frame
import proofs.«127939_j58128087384683_1_alg».proof.Proof.Gen.KernelIdeal
import proofs.«127939_j58128087384683_1_alg».proof.Proof.Gen.KernelIdeal.Skeleton
import proofs.«127939_j58128087384683_1_alg».proof.Proof.Gen.KernelIdeal.Launch
import proofs.«127939_j58128087384683_1_alg».proof.Proof.Gen.KernelIdeal.Points
import proofs.«127939_j58128087384683_1_alg».proof.Proof.Gen.KernelIdeal.Frame
import proofs.«127939_j58128087384683_1_alg».proof.Proof.Gen.ReferenceIdeal
import proofs.«127939_j58128087384683_1_alg».proof.Proof.Gen.Pre_finite_inputs
import proofs.«127939_j58128087384683_1_alg».proof.Proof.Gen.KernelIdeal.Value
import proofs.«127939_j58128087384683_1_alg».proof.Proof.Gen.ReferenceIdeal.Run
import proofs.«127939_j58128087384683_1_alg».proof.Proof.Gen.ReferenceIdeal.Read
import proofs.«127939_j58128087384683_1_alg».proof.Proof.WholeArray
import proofs.«127939_j58128087384683_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and w, the kernel's result array ends at `G x w` (the blocks, covered) and the
    reference's at its last stage, which is `G x w` read stage by stage. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
